-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x600000 32) (main_arg2 : FVec F S600000 .f32) (main_arg3 : FVec F S128x256 .f32) (main_arg4 : FVec F S256 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S50000x256 : Shape := ⟨2, ![50000, 256]⟩
abbrev S2000x128 : Shape := ⟨2, ![2000, 128]⟩
abbrev S2000x256 : Shape := ⟨2, ![2000, 256]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x256 : Shape := ⟨2, ![650000, 256]⟩
abbrev S1x256 : Shape := ⟨2, ![1, 256]⟩
abbrev S650000x128 : Shape := ⟨2, ![650000, 128]⟩
abbrev S1x128 : Shape := ⟨2, ![1, 128]⟩

abbrev nBuf : Space → Nat
  | .hbm => 139
  | .vmem => 10
  | .smem => 0
  | _ => 0

abbrev hbmTy0_0 (i : Nat) : BufTy := match i % 128 with
  | 0 => ⟨S50000x128, .f32⟩
  | 1 => ⟨S2x600000, .i32⟩
  | 2 => ⟨S600000, .f32⟩
  | 3 => ⟨S128x256, .f32⟩
  | 4 => ⟨S256, .f32⟩
  | 5 => ⟨S256x128, .f32⟩
  | 6 => ⟨S128, .f32⟩
  | 7 => ⟨S1x600000, .i32⟩
  | 8 => ⟨S600000, .i32⟩
  | 9 => ⟨S1x600000, .i32⟩
  | 10 => ⟨S600000, .i32⟩
  | 11 => ⟨S50000x256, .f32⟩
  | 12 => ⟨S50000, .i32⟩
  | 13 => ⟨S650000, .i32⟩
  | 14 => ⟨S650000, .i32⟩
  | 15 => ⟨S_, .f32⟩
  | 16 => ⟨S50000, .f32⟩
  | 17 => ⟨S650000, .f32⟩
  | 18 => ⟨S_, .f32⟩
  | 19 => ⟨S50000, .f32⟩
  | 20 => ⟨S650000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S650000, .i32⟩
  | 35 => ⟨S650000, .i1⟩
  | 36 => ⟨S_, .i32⟩
  | 37 => ⟨S650000, .i32⟩
  | 38 => ⟨S650000, .i32⟩
  | 39 => ⟨S650000, .i32⟩
  | 40 => ⟨S650000x1, .i32⟩
  | 41 => ⟨S650000, .f32⟩
  | 42 => ⟨S650000, .f32⟩
  | 43 => ⟨S_, .i32⟩
  | 44 => ⟨S650000, .i32⟩
  | 45 => ⟨S650000, .i1⟩
  | 46 => ⟨S_, .i32⟩
  | 47 => ⟨S650000, .i32⟩
  | 48 => ⟨S650000, .i32⟩
  | 49 => ⟨S650000, .i32⟩
  | 50 => ⟨S650000x1, .i32⟩
  | 51 => ⟨S650000, .f32⟩
  | 52 => ⟨S650000, .f32⟩
  | 53 => ⟨S650000x1, .f32⟩
  | 54 => ⟨S_, .i32⟩
  | 55 => ⟨S650000, .i32⟩
  | 56 => ⟨S650000, .i1⟩
  | 57 => ⟨S_, .i32⟩
  | 58 => ⟨S650000, .i32⟩
  | 59 => ⟨S650000, .i32⟩
  | 60 => ⟨S650000, .i32⟩
  | 61 => ⟨S650000x1, .i32⟩
  | 62 => ⟨S650000x256, .f32⟩
  | 63 => ⟨S650000x256, .f32⟩
  | 64 => ⟨S650000x256, .f32⟩
  | 65 => ⟨S_, .f32⟩
  | 66 => ⟨S50000x256, .f32⟩
  | 67 => ⟨S650000x1, .i32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x128, .f32⟩
  | 76 => ⟨S50000, .i32⟩
  | 77 => ⟨S650000, .i32⟩
  | 78 => ⟨S650000, .i32⟩
  | 79 => ⟨S_, .f32⟩
  | 80 => ⟨S50000, .f32⟩
  | 81 => ⟨S650000, .f32⟩
  | 82 => ⟨S_, .f32⟩
  | 83 => ⟨S50000, .f32⟩
  | 84 => ⟨S650000x1, .i32⟩
  | 85 => ⟨S50000, .f32⟩
  | 86 => ⟨S_, .f32⟩
  | 87 => ⟨S50000, .f32⟩
  | 88 => ⟨S50000, .i1⟩
  | 89 => ⟨S_, .f32⟩
  | 90 => ⟨S50000, .f32⟩
  | 91 => ⟨S50000, .f32⟩
  | 92 => ⟨S50000, .f32⟩
  | 93 => ⟨S_, .f32⟩
  | 94 => ⟨S_, .f32⟩
  | 95 => ⟨S50000, .f32⟩
  | 96 => ⟨S50000, .f32⟩
  | 97 => ⟨S_, .i32⟩
  | 98 => ⟨S650000, .i32⟩
  | 99 => ⟨S650000, .i1⟩
  | 100 => ⟨S_, .i32⟩
  | 101 => ⟨S650000, .i32⟩
  | 102 => ⟨S650000, .i32⟩
  | 103 => ⟨S650000, .i32⟩
  | 104 => ⟨S650000x1, .i32⟩
  | 105 => ⟨S650000, .f32⟩
  | 106 => ⟨S650000, .f32⟩
  | 107 => ⟨S_, .i32⟩
  | 108 => ⟨S650000, .i32⟩
  | 109 => ⟨S650000, .i1⟩
  | 110 => ⟨S_, .i32⟩
  | 111 => ⟨S650000, .i32⟩
  | 112 => ⟨S650000, .i32⟩
  | 113 => ⟨S650000, .i32⟩
  | 114 => ⟨S650000x1, .i32⟩
  | 115 => ⟨S650000, .f32⟩
  | 116 => ⟨S650000, .f32⟩
  | 117 => ⟨S650000x1, .f32⟩
  | 118 => ⟨S_, .i32⟩
  | 119 => ⟨S650000, .i32⟩
  | 120 => ⟨S650000, .i1⟩
  | 121 => ⟨S_, .i32⟩
  | 122 => ⟨S650000, .i32⟩
  | 123 => ⟨S650000, .i32⟩
  | 124 => ⟨S650000, .i32⟩
  | 125 => ⟨S650000x1, .i32⟩
  | 126 => ⟨S650000x128, .f32⟩
  | 127 => ⟨S650000x128, .f32⟩
  | _ => ⟨S50000x128, .f32⟩

abbrev hbmTy0_1 (i : Nat) : BufTy := match i % 128 with
  | 0 => ⟨S650000x128, .f32⟩
  | 1 => ⟨S_, .f32⟩
  | 2 => ⟨S50000x128, .f32⟩
  | 3 => ⟨S650000x1, .i32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_19 : Ref sig .tc := ⟨.hbm, 118, rfl⟩
abbrev main_v84 : Ref sig .tc := ⟨.hbm, 119, rfl⟩
abbrev main_v85 : Ref sig .tc := ⟨.hbm, 120, rfl⟩
abbrev main_c_20 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_21 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_call3_cst : Ref sig .tc := ⟨.hbm, 136, rfl⟩
abbrev main_call3_v0 : Ref sig .tc := ⟨.hbm, 137, rfl⟩
abbrev main_v99 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x256_0_1 : S650000x1.BroadcastsInDim S650000x256 (![0, 1] : Fin 2 → Fin S650000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S2000x128_S128x256_S2000x256_1_0_0_1_n_n_wf : DotDims.WF S2000x128 S128x256 S2000x256 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x256_S650000x1_S650000x256_1_0_n_n_0_1_1256_wf : GatherDims.WF S50000x256 S650000x1 S650000x256 [1] [0] [] [0] [] 1 ![1, 256]
  scatter_S50000x256_S650000x1_S650000x256_1_0_0_1_wf : ScatterDims.WF S50000x256 S650000x1 S650000x256 [1] [0] [0] 1
  dot_S2000x256_S256x128_S2000x128_1_0_0_1_n_n_wf : DotDims.WF S2000x256 S256x128 S2000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x256_S650000x1_S650000x256_1_0_n_n_0_1_1256 : GatherDims S50000x256 S650000x1 S650000x256 where
  offsetDims := [1]
  collapsedSliceDims := [0]
  operandBatchingDims := []
  startIndicesBatchingDims := []
  startIndexMap := [0]
  indexVectorDim := 1
  sliceSizes := ![1, 256]
  wf := gather_S50000x256_S650000x1_S650000x256_1_0_n_n_0_1_1256_wf
def scatter_S50000x256_S650000x1_S650000x256_1_0_0_1 : ScatterDims S50000x256 S650000x1 S650000x256 where
  updateWindowDims := [1]
  insertedWindowDims := [0]
  scatterDimsToOperandDims := [0]
  indexVectorDim := 1
  wf := scatter_S50000x256_S650000x1_S650000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S50000x256 : Shape := ⟨2, ![50000, 256]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x256 : Shape := ⟨2, ![650000, 256]⟩
abbrev S1x256 : Shape := ⟨2, ![1, 256]⟩
abbrev S650000x128 : Shape := ⟨2, ![650000, 128]⟩
abbrev S1x128 : Shape := ⟨2, ![1, 128]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S2x600000, .i32⟩
  | 2 => ⟨S600000, .f32⟩
  | 3 => ⟨S128x256, .f32⟩
  | 4 => ⟨S256, .f32⟩
  | 5 => ⟨S256x128, .f32⟩
  | 6 => ⟨S128, .f32⟩
  | 7 => ⟨S1x600000, .i32⟩
  | 8 => ⟨S600000, .i32⟩
  | 9 => ⟨S1x600000, .i32⟩
  | 10 => ⟨S600000, .i32⟩
  | 11 => ⟨S50000x256, .f32⟩
  | 12 => ⟨S50000, .i32⟩
  | 13 => ⟨S650000, .i32⟩
  | 14 => ⟨S650000, .i32⟩
  | 15 => ⟨S_, .f32⟩
  | 16 => ⟨S50000, .f32⟩
  | 17 => ⟨S650000, .f32⟩
  | 18 => ⟨S_, .f32⟩
  | 19 => ⟨S50000, .f32⟩
  | 20 => ⟨S650000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S650000, .i32⟩
  | 35 => ⟨S650000, .i1⟩
  | 36 => ⟨S_, .i32⟩
  | 37 => ⟨S650000, .i32⟩
  | 38 => ⟨S650000, .i32⟩
  | 39 => ⟨S650000, .i32⟩
  | 40 => ⟨S650000x1, .i32⟩
  | 41 => ⟨S650000, .f32⟩
  | 42 => ⟨S650000, .f32⟩
  | 43 => ⟨S_, .i32⟩
  | 44 => ⟨S650000, .i32⟩
  | 45 => ⟨S650000, .i1⟩
  | 46 => ⟨S_, .i32⟩
  | 47 => ⟨S650000, .i32⟩
  | 48 => ⟨S650000, .i32⟩
  | 49 => ⟨S650000, .i32⟩
  | 50 => ⟨S650000x1, .i32⟩
  | 51 => ⟨S650000, .f32⟩
  | 52 => ⟨S650000, .f32⟩
  | 53 => ⟨S650000x1, .f32⟩
  | 54 => ⟨S_, .i32⟩
  | 55 => ⟨S650000, .i32⟩
  | 56 => ⟨S650000, .i1⟩
  | 57 => ⟨S_, .i32⟩
  | 58 => ⟨S650000, .i32⟩
  | 59 => ⟨S650000, .i32⟩
  | 60 => ⟨S650000, .i32⟩
  | 61 => ⟨S650000x1, .i32⟩
  | 62 => ⟨S650000x256, .f32⟩
  | 63 => ⟨S650000x256, .f32⟩
  | 64 => ⟨S650000x256, .f32⟩
  | 65 => ⟨S_, .f32⟩
  | 66 => ⟨S50000x256, .f32⟩
  | 67 => ⟨S650000x1, .i32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x128, .f32⟩
  | 76 => ⟨S50000, .i32⟩
  | 77 => ⟨S650000, .i32⟩
  | 78 => ⟨S650000, .i32⟩
  | 79 => ⟨S_, .f32⟩
  | 80 => ⟨S50000, .f32⟩
  | 81 => ⟨S650000, .f32⟩
  | 82 => ⟨S_, .f32⟩
  | 83 => ⟨S50000, .f32⟩
  | 84 => ⟨S650000x1, .i32⟩
  | 85 => ⟨S50000, .f32⟩
  | 86 => ⟨S_, .f32⟩
  | 87 => ⟨S50000, .f32⟩
  | 88 => ⟨S50000, .i1⟩
  | 89 => ⟨S_, .f32⟩
  | 90 => ⟨S50000, .f32⟩
  | 91 => ⟨S50000, .f32⟩
  | 92 => ⟨S50000, .f32⟩
  | 93 => ⟨S_, .f32⟩
  | 94 => ⟨S_, .f32⟩
  | 95 => ⟨S50000, .f32⟩
  | 96 => ⟨S50000, .f32⟩
  | 97 => ⟨S_, .i32⟩
  | 98 => ⟨S650000, .i32⟩
  | 99 => ⟨S650000, .i1⟩
  | 100 => ⟨S_, .i32⟩
  | 101 => ⟨S650000, .i32⟩
  | 102 => ⟨S650000, .i32⟩
  | 103 => ⟨S650000, .i32⟩
  | 104 => ⟨S650000x1, .i32⟩
  | 105 => ⟨S650000, .f32⟩
  | 106 => ⟨S650000, .f32⟩
  | 107 => ⟨S_, .i32⟩
  | 108 => ⟨S650000, .i32⟩
  | 109 => ⟨S650000, .i1⟩
  | 110 => ⟨S_, .i32⟩
  | 111 => ⟨S650000, .i32⟩
  | 112 => ⟨S650000, .i32⟩
  | 113 => ⟨S650000, .i32⟩
  | 114 => ⟨S650000x1, .i32⟩
  | 115 => ⟨S650000, .f32⟩
  | 116 => ⟨S650000, .f32⟩
  | 117 => ⟨S650000x1, .f32⟩
  | 118 => ⟨S_, .i32⟩
  | 119 => ⟨S650000, .i32⟩
  | 120 => ⟨S650000, .i1⟩
  | 121 => ⟨S_, .i32⟩
  | 122 => ⟨S650000, .i32⟩
  | 123 => ⟨S650000, .i32⟩
  | 124 => ⟨S650000, .i32⟩
  | 125 => ⟨S650000x1, .i32⟩
  | 126 => ⟨S650000x128, .f32⟩
  | 127 => ⟨S650000x128, .f32⟩
  | _ => ⟨S50000x128, .f32⟩

abbrev hbmTy0_1 (i : Nat) : BufTy := match i % 128 with
  | 0 => ⟨S650000x128, .f32⟩
  | 1 => ⟨S_, .f32⟩
  | 2 => ⟨S50000x128, .f32⟩
  | 3 => ⟨S650000x1, .i32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_19 : Ref sig .tc := ⟨.hbm, 118, rfl⟩
abbrev main_v84 : Ref sig .tc := ⟨.hbm, 119, rfl⟩
abbrev main_v85 : Ref sig .tc := ⟨.hbm, 120, rfl⟩
abbrev main_c_20 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_21 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_call3_cst : Ref sig .tc := ⟨.hbm, 136, rfl⟩
abbrev main_call3_v0 : Ref sig .tc := ⟨.hbm, 137, rfl⟩
abbrev main_v99 : Ref sig .tc := ⟨.hbm, 138, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x256_0_1 : S650000x1.BroadcastsInDim S650000x256 (![0, 1] : Fin 2 → Fin S650000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x256_S50000x256_1_0_0_1_n_n_wf : DotDims.WF S50000x128 S128x256 S50000x256 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x256_S650000x1_S650000x256_1_0_n_n_0_1_1256_wf : GatherDims.WF S50000x256 S650000x1 S650000x256 [1] [0] [] [0] [] 1 ![1, 256]
  scatter_S50000x256_S650000x1_S650000x256_1_0_0_1_wf : ScatterDims.WF S50000x256 S650000x1 S650000x256 [1] [0] [0] 1
  dot_S50000x256_S256x128_S50000x128_1_0_0_1_n_n_wf : DotDims.WF S50000x256 S256x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x256_S650000x1_S650000x256_1_0_n_n_0_1_1256 : GatherDims S50000x256 S650000x1 S650000x256 where
  offsetDims := [1]
  collapsedSliceDims := [0]
  operandBatchingDims := []
  startIndicesBatchingDims := []
  startIndexMap := [0]
  indexVectorDim := 1
  sliceSizes := ![1, 256]
  wf := gather_S50000x256_S650000x1_S650000x256_1_0_n_n_0_1_1256_wf
def scatter_S50000x256_S650000x1_S650000x256_1_0_0_1 : ScatterDims S50000x256 S650000x1 S650000x256 where
  updateWindowDims := [1]
  insertedWindowDims := [0]
  scatterDimsToOperandDims := [0]
  indexVectorDim := 1
  wf := scatter_S50000x256_S650000x1_S650000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.Layer.lean ====
/-
  One graph-convolution layer as a function of its dense product.

  Both programs compute, twice, the layer
      out = relu (A · h + b),     h = X · W,
  where A is the symmetrically normalised adjacency matrix of the edge list with one self-loop of
  weight one added at every node: for an edge e from src e to dst e of weight w e,
      deg v   = Σ_{e : dst e = v} w e                     (the weighted in-degree, self-loop included),
      dinv v  = if deg v > 0 then (max (deg v) 1e-30)^(-1/2) else 0,
      norm e  = dinv (src e) · w e · dinv (dst e),
      (A · h) v = Σ_{e : dst e = v} norm e · h (src e).
  Nothing here looks inside h: the layer is written once, over the edge list, the weights, the bias
  and an ARBITRARY matrix h of the right shape. The two programs differ only in how they form
  h = X · W, so their results are this one function applied to two products, and equal as soon as
  the products are.

  The stages are spelt with the operations and the shape records of the reference program, in the
  order and grouping in which it applies them.
-/
import proofs.«139594_j37160057045292_1_alg».proof.Proof.Gen.ReferenceIdeal

noncomputable section

namespace Cert.Gcn

open Cert.ReferenceIdeal Cert.ReferenceIdeal.Facts₀ Cert.ReferenceIdeal.Facts Idealize.ShloMosaic

variable {F : FTy → Type} [FloatOps F]

/-- Row r of the 2 × E edge list as a flat vector of E node numbers: row 0 holds the sources,
    row 1 the destinations. -/
def sources (ei : (⟨S2x600000, .i32⟩ : BufTy).Contents (Elt F)) : (⟨S600000, .i32⟩ : BufTy).Contents (Elt F) :=
  shapeCast S600000 (extractStridedSlice S1x600000 ![0, 0] ei slices_S2x600000_S1x600000_0_0) shapeCasts_S1x600000_S600000

def destinations (ei : (⟨S2x600000, .i32⟩ : BufTy).Contents (Elt F)) : (⟨S600000, .i32⟩ : BufTy).Contents (Elt F) :=
  shapeCast S600000 (extractStridedSlice S1x600000 ![1, 0] ei slices_S2x600000_S1x600000_1_0) shapeCasts_S1x600000_S600000

/-- A vector of E end points with the N self-loops appended: position E + v is node v. -/
def withLoops (r : (⟨S600000, .i32⟩ : BufTy).Contents (Elt F)) : (⟨S650000, .i32⟩ : BufTy).Contents (Elt F) :=
  concatenate S650000 0 [⟨S600000, r⟩, ⟨S50000, (iotaInDim S50000 32 0)⟩] concatenates_S600000_S50000_S650000_d0

/-- The edge weights with weight one on every self-loop. -/
def weights (ew : (⟨S600000, .f32⟩ : BufTy).Contents (Elt F)) : (⟨S650000, .f32⟩ : BufTy).Contents (Elt F) :=
  concatenate S650000 0 [⟨S600000, ew⟩, ⟨S50000, (broadcastInDim S50000 ![] bcast_S_S50000 (constant S_ .f32 0x3F800000#32))⟩] concatenates_S600000_S50000_S650000_d0

/-- A vector over the E + N edges as the one-column table that gather and scatter-add take. -/
def asColumn {α : Type} (v : S650000.Idx → α) : S650000x1.Idx → α :=
  broadcastInDim S650000x1 ![0] bcast_S650000_S650000x1_0 v

/-- A negative node number counts from the end: i ↦ i + N where i < 0. -/
def wrap (i : (⟨S650000, .i32⟩ : BufTy).Contents (Elt F)) : (⟨S650000, .i32⟩ : BufTy).Contents (Elt F) :=
  select (cmpi .slt i (broadcastInDim S650000 ![] bcast_S_S650000 (constantI S_ 32 0#32)))
    (addi i (broadcastInDim S650000 ![] bcast_S_S650000 (constantI S_ 32 50000#32))) i

/-- deg v: the weights of the edges into v added up from zero, over end points and weights that
    already carry the self-loops. -/
def degreeOf (dstL : (⟨S650000, .i32⟩ : BufTy).Contents (Elt F)) (wts : (⟨S650000, .f32⟩ : BufTy).Contents (Elt F)) :
    (⟨S50000, .f32⟩ : BufTy).Contents (Elt F) :=
  Host.scatterAdd scatter_S50000_S650000x1_S650000_n_0_0_1
    (broadcastInDim S50000 ![] bcast_S_S50000 (constant S_ .f32 0x00000000#32)) (asColumn dstL) wts

/-- Where deg v > 0 (as a vector of truth values). -/
def isPositive (deg : (⟨S50000, .f32⟩ : BufTy).Contents (Elt F)) : (⟨S50000, .i1⟩ : BufTy).Contents (Elt F) :=
  cmpf .ogt deg (broadcastInDim S50000 ![] bcast_S_S50000 (constant S_ .f32 0x00000000#32))

/-- (max (deg v) 1e-30)^(-1/2): the clamp keeps the root away from zero. -/
def rsqrtClamped (deg : (⟨S50000, .f32⟩ : BufTy).Contents (Elt F)) : (⟨S50000, .f32⟩ : BufTy).Contents (Elt F) :=
  Host.rsqrt (maximumf deg (broadcastInDim S50000 ![] bcast_S_S50000 (constant S_ .f32 0x0DA24260#32)))

/-- One scalar at every node. -/
def fillOf (z : (⟨S_, .f32⟩ : BufTy).Contents (Elt F)) : (⟨S50000, .f32⟩ : BufTy).Contents (Elt F) :=
  broadcastInDim S50000 ![] bcast_S_S50000 (id z)

/-- dinv v = (max (deg v) 1e-30)^(-1/2) where deg v > 0, and 0 elsewhere. -/
def invSqrtOf (deg : (⟨S50000, .f32⟩ : BufTy).Contents (Elt F)) : (⟨S50000, .f32⟩ : BufTy).Contents (Elt F) :=
  select (isPositive deg) (rsqrtClamped deg) (fillOf (constant S_ .f32 0x00000000#32))

/-- norm e = dinv (src e) · w e · dinv (dst e), grouped as the programs group it. -/
def normOf (srcL dstL : (⟨S650000, .i32⟩ : BufTy).Contents (Elt F)) (wts : (⟨S650000, .f32⟩ : BufTy).Contents (Elt F))
    (dinv : (⟨S50000, .f32⟩ : BufTy).Contents (Elt F)) : (⟨S650000, .f32⟩ : BufTy).Contents (Elt F) :=
  mulf (mulf (Host.gather gather_S50000_S650000x1_S650000_n_0_n_n_0_1_1 dinv (asColumn (wrap srcL))) wts)
    (Host.gather gather_S50000_S650000x1_S650000_n_0_n_n_0_1_1 dinv (asColumn (wrap dstL)))

/-- A · h + b at 256 features: row src e of h is gathered for every edge, scaled by norm e and added
    into row dst e of a zero matrix; then the bias is added to every row. -/
def aggregate256 (srcL dstL : (⟨S650000, .i32⟩ : BufTy).Contents (Elt F)) (wts : (⟨S650000, .f32⟩ : BufTy).Contents (Elt F))
    (dinv : (⟨S50000, .f32⟩ : BufTy).Contents (Elt F)) (b : (⟨S256, .f32⟩ : BufTy).Contents (Elt F))
    (h : (⟨S50000x256, .f32⟩ : BufTy).Contents (Elt F)) : (⟨S50000x256, .f32⟩ : BufTy).Contents (Elt F) :=
  addf
    (Host.scatterAdd scatter_S50000x256_S650000x1_S650000x256_1_0_0_1
      (broadcastInDim S50000x256 ![] bcast_S_S50000x256 (constant S_ .f32 0x00000000#32)) (asColumn dstL)
      (mulf (broadcastInDim S650000x256 ![0, 1] bcast_S650000x1_S650000x256_0_1 (asColumn (normOf srcL dstL wts dinv)))
        (Host.gather gather_S50000x256_S650000x1_S650000x256_1_0_n_n_0_1_1256 h (asColumn (wrap srcL)))))
    (broadcastInDim S50000x256 ![0, 1] bcast_S1x256_S50000x256_0_1 (broadcastInDim S1x256 ![1] bcast_S256_S1x256_1 b))

/-- The same at 128 features. -/
def aggregate128 (srcL dstL : (⟨S650000, .i32⟩ : BufTy).Contents (Elt F)) (wts : (⟨S650000, .f32⟩ : BufTy).Contents (Elt F))
    (dinv : (⟨S50000, .f32⟩ : BufTy).Contents (Elt F)) (b : (⟨S128, .f32⟩ : BufTy).Contents (Elt F))
    (h : (⟨S50000x128, .f32⟩ : BufTy).Contents (Elt F)) : (⟨S50000x128, .f32⟩ : BufTy).Contents (Elt F) :=
  addf
    (Host.scatterAdd scatter_S50000x128_S650000x1_S650000x128_1_0_0_1
      (broadcastInDim S50000x128 ![] bcast_S_S50000x128 (constant S_ .f32 0x00000000#32)) (asColumn dstL)
      (mulf (broadcastInDim S650000x128 ![0, 1] bcast_S650000x1_S650000x128_0_1 (asColumn (normOf srcL dstL wts dinv)))
        (Host.gather gather_S50000x128_S650000x1_S650000x128_1_0_n_n_0_1_1128 h (asColumn (wrap srcL)))))
    (broadcastInDim S50000x128 ![0, 1] bcast_S1x128_S50000x128_0_1 (broadcastInDim S1x128 ![1] bcast_S128_S1x128_1 b))

/-- relu: the negative part cut off, entry by entry. -/
def relu256 (x : (⟨S50000x256, .f32⟩ : BufTy).Contents (Elt F)) : (⟨S50000x256, .f32⟩ : BufTy).Contents (Elt F) :=
  maximumf x (broadcastInDim S50000x256 ![] bcast_S_S50000x256 (constant S_ .f32 0x00000000#32))
def relu128 (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- The inverse square-root degrees of an edge list with weights. -/
def invSqrtDegree (dst : (⟨S600000, .i32⟩ : BufTy).Contents (Elt F)) (ew : (⟨S600000, .f32⟩ : BufTy).Contents (Elt F)) :
    (⟨S50000, .f32⟩ : BufTy).Contents (Elt F) :=
  invSqrtOf (degreeOf (withLoops dst) (weights ew))

/-- The first layer, 256 features wide: relu (A · h + b). -/
def layer256 (src dst : (⟨S600000, .i32⟩ : BufTy).Contents (Elt F)) (ew : (⟨S600000, .f32⟩ : BufTy).Contents (Elt F))
    (b : (⟨S256, .f32⟩ : BufTy).Contents (Elt F)) (h : (⟨S50000x256, .f32⟩ : BufTy).Contents (Elt F)) :
    (⟨S50000x256, .f32⟩ : BufTy).Contents (Elt F) :=
  relu256 (aggregate256 (withLoops src) (withLoops dst) (weights ew) (invSqrtDegree dst ew) b h)

/-- The second layer, 128 features wide: the same function at the other width. -/
def layer128 (src dst : (⟨S600000, .i32⟩ : BufTy).Contents (Elt F)) (ew : (⟨S600000, .f32⟩ : BufTy).Contents (Elt F))
    (b : (⟨S128, .f32⟩ : BufTy).Contents (Elt F)) (h : (⟨S50000x128, .f32⟩ : BufTy).Contents (Elt F)) :
    (⟨S50000x128, .f32⟩ : BufTy).Contents (Elt F) :=
  relu128 (aggregate128 (withLoops src) (withLoops dst) (weights ew) (invSqrtDegree dst ew) b h)

/-- The two dense products, as the reference forms them: row i of the left matrix against
    column j of the right one, summed over the shared axis. -/
def product1 (x : (⟨S50000x128, .f32⟩ : BufTy).Contents (Elt F)) (w : (⟨S128x256, .f32⟩ : BufTy).Contents (Elt F)) :
    (⟨S50000x256, .f32⟩ : BufTy).Contents (Elt F) :=
  Host.dotGeneral dot_S50000x128_S128x256_S50000x256_1_0_0_1_n_n none x w

def product2 (x : (⟨S50000x256, .f32⟩ : BufTy).Contents (Elt F)) (w : (⟨S256x128, .f32⟩ : BufTy).Contents (Elt F)) :
    (⟨S50000x128, .f32⟩ : BufTy).Contents (Elt F) :=
  Host.dotGeneral dot_S50000x256_S256x128_S50000x128_1_0_0_1_n_n none x w

/-- The whole network over given products: layer 2 of (product 2 of (layer 1 of product 1)). -/
def network (mm1 : (⟨S50000x128, .f32⟩ : BufTy).Contents (Elt F) → (⟨S128x256, .f32⟩ : BufTy).Contents (Elt F) → (⟨S50000x256, .f32⟩ : BufTy).Contents (Elt F))
    (mm2 : (⟨S50000x256, .f32⟩ : BufTy).Contents (Elt F) → (⟨S256x128, .f32⟩ : BufTy).Contents (Elt F) → (⟨S50000x128, .f32⟩ : BufTy).Contents (Elt F))
    (x : (⟨S50000x128, .f32⟩ : BufTy).Contents (Elt F)) (ei : (⟨S2x600000, .i32⟩ : BufTy).Contents (Elt F))
    (ew : (⟨S600000, .f32⟩ : BufTy).Contents (Elt F)) (w1 : (⟨S128x256, .f32⟩ : BufTy).Contents (Elt F))
    (b1 : (⟨S256, .f32⟩ : BufTy).Contents (Elt F)) (w2 : (⟨S256x128, .f32⟩ : BufTy).Contents (Elt F))
    (b2 : (⟨S128, .f32⟩ : BufTy).Contents (Elt F)) : (⟨S50000x128, .f32⟩ : BufTy).Contents (Elt F) :=
  layer128 (sources ei) (destinations ei) ew b2
    (mm2 (layer256 (sources ei) (destinations ei) ew b1 (mm1 x w1)) w2)

end Cert.Gcn

end
-- ==== Proof.KernelRun.lean ====
/-
  The kernel program's run, with its result named.

  The program is eleven segments in a row: a stretch of host operations, the first product's 25
  grid points, four stretches that build the first layer around it, the second product's 25 grid
  points, four stretches that build the second layer. What the device's buffers hold at each
  boundary between segments is a fold from the launch memory: a stretch rewrites the buffers its
  operations write, a product region rewrites its output array with what its write-backs leave, and
  everything else is carried over. Every weakly fair execution terminates with every buffer at the
  last boundary's contents. The frame certificate reads that off at the seven argument buffers;
  here it is read off at the result buffer as well.
-/
import proofs.«139594_j37160057045292_1_alg».proof.Proof.Gen.KernelIdeal.Frame

set_option maxRecDepth 16384

noncomputable section

namespace Cert.Gcn.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer
    at the last boundary's contents and the seven arguments as launched. -/
theorem run_result : θ_run defs (onTc (τ := τ) (main (F := F))) ⟨m, fun _ => 0, ρ⟩ (fun r => ∀ c : Dev nD,
      r.2.mem ((c.tc : Thread nD τ).loc main_v99) = W11 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v99 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.Gcn.Kernel

end
-- ==== Proof.Product1.lean ====
/-
  The first dense product, as the kernel leaves it in its output array.

  The kernel tiles the 50000 rows of the left matrix into 25 blocks of 2000. At grid point t it
  loads block t of the left matrix (rows 2000 t … 2000 t + 1999, all 128 columns) and the whole right
  matrix (128 × 256), and stores, into block t of the output, their matrix product accumulated from
  zero; the change of number format in front of the product is the identity on extended reals. So
  entry (r, c) of the stored block is  Σ_k  left (2000 t + r, k) · right (k, c),  which is entry
  (2000 t + r, c) of the product of the whole matrices: every block is the restriction of ONE
  whole-array function, the 25 blocks cover the rows, and the output array ends holding that function.
-/
import proofs.«139594_j37160057045292_1_alg».proof.Proof.Layer
import proofs.«139594_j37160057045292_1_alg».proof.Proof.Gen.KernelIdeal.Frame
import proofs.«139594_j37160057045292_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.Gcn.Kernel

open Cert.KernelIdeal Cert.KernelIdeal.Gen Idealize.ShloMosaic Idealize.ShloMosaic.TcCoe Idealize.SL.Sem
open Idealize.ShloMosaic.Pipeline (Dat)

theorem origin2 : (![0, 0] : Fin 2 → Nat) = fun _ => 0 := funext fun a => by fin_cases a <;> rfl

/-! ## The block product at an index -/

/-- In the 2000 × 128 by 128 × 256 product, output entry j and summation index q read the left
    block at (row of j, q) and the right matrix at (q, column of j). -/
theorem left0_row (j : S2000x256.Idx) (q : dot_S2000x128_S128x256_S2000x256_1_0_0_1_n_n.contr.Idx) :
    (dot_S2000x128_S128x256_S2000x256_1_0_0_1_n_n.lhsIdx j q 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem left0_k (j : S2000x256.Idx) (q : dot_S2000x128_S128x256_S2000x256_1_0_0_1_n_n.contr.Idx) :
    (dot_S2000x128_S128x256_S2000x256_1_0_0_1_n_n.lhsIdx j q 1).val = (q ⟨0, by decide⟩).val :=
  dot_S2000x128_S128x256_S2000x256_1_0_0_1_n_n.lhsIdx_val_of_single rfl j q
theorem right0_k (j : S2000x256.Idx) (q : dot_S2000x128_S128x256_S2000x256_1_0_0_1_n_n.contr.Idx) :
    (dot_S2000x128_S128x256_S2000x256_1_0_0_1_n_n.rhsIdx j q 0).val = (q ⟨0, by decide⟩).val :=
  dot_S2000x128_S128x256_S2000x256_1_0_0_1_n_n.rhsIdx_val_of_single rfl j q
theorem right0_col (j : S2000x256.Idx) (q : dot_S2000x128_S128x256_S2000x256_1_0_0_1_n_n.contr.Idx) :
    (dot_S2000x128_S128x256_S2000x256_1_0_0_1_n_n.rhsIdx j q 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- (row of j, k) in the left block and (k, column of j) in the right matrix. -/
abbrev rowK0 (j : S2000x256.Idx) (k : Fin 128) : S2000x128.Idx := fun a => match a with
  | ⟨0, _⟩ => ⟨(j 0).val, (j 0).isLt⟩
  | ⟨1, _⟩ => ⟨k.val, k.isLt⟩
abbrev kCol0 (j : S2000x256.Idx) (k : Fin 128) : S128x256.Idx := fun a => match a with
  | ⟨0, _⟩ => ⟨k.val, k.isLt⟩
  | ⟨1, _⟩ => ⟨(j 1).val, (j 1).isLt⟩

/-- What the body stores, at an entry: the sum over the 128 shared indices of left times right. -/
theorem stored0_apply (x0 : Vec Ideal S2000x128 .f32) (x1 : Vec Ideal S128x256 .f32) (j : S2000x256.Idx) :
    k0_pay1 (F := Ideal) x0 x1 j = ∑ k : Fin 128, x0 (rowK0 j k) * x1 (kCol0 j k) := by
  show FloatOps.matmul dot_S2000x128_S128x256_S2000x256_1_0_0_1_n_n none x0 x1 (constant (F := Ideal) S2000x256 .f32 0x00000000#32) j = _
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx j ((ValueIdx.contrEquiv1 dot_S2000x128_S128x256_S2000x256_1_0_0_1_n_n 128 rfl rfl).symm k) = rowK0 j k := funext fun a => Fin.ext (by
    match a with
    | ⟨0, _⟩ => exact left0_row _ _
    | ⟨1, _⟩ => exact (left0_k _ _).trans hk)
  have er : dot_S2000x128_S128x256_S2000x256_1_0_0_1_n_n.rhsIdx j ((ValueIdx.contrEquiv1 dot_S2000x128_S128x256_S2000x256_1_0_0_1_n_n 128 rfl rfl).symm k) = kCol0 j k := funext fun a => Fin.ext (by
    match a with
    | ⟨0, _⟩ => exact (right0_k _ _).trans hk
    | ⟨1, _⟩ => exact right0_col _ _)
  rw [el, er]

/-! ## From the 25 blocks to the array -/

/-- The printed block index maps, decided over the 25 grid points: the left matrix and the output
    move down one block of rows per point and never sideways; the right matrix stays put. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the product of the whole matrices, whatever the region
    finds in its arrays. -/
theorem flushed0 (c : Dev nD) (t : Fin cfg0.N) :
    (dat0 (F := Ideal) V c).flushed 2 t
      = ((cfg0.win 2).blk t).view.read (Elt Ideal) (Cert.Gcn.product1 (F := Ideal) (V c main_arg0) (V c main_arg3)) := by
  show (cfg0.win 2).cut (grid0.coords t) ((dat0 V c).after 2 t) = _
  rw [after0_2]
  unfold out0_2
  rw [View.canon_unit_zero origin2]
  simp only [View.ld_unit_zero (S := S2000x128) origin2, View.ld_unit_zero (S := S128x256) origin2]
  obtain ⟨e0, e1, e2, e3, e4, e5⟩ := blockIndex0 t
  funext j
  show k0_pay1 (iblk0 V c 0 t) (iblk0 V c 1 t) j
    = Cert.ReferenceIdeal.Read.val_main_v4 (F := Ideal) (V c main_arg0) (V c main_arg3) (((cfg0.win 2).blk t).view.emb j)
  refine (stored0_apply (iblk0 V c 0 t) (iblk0 V c 1 t) j).trans ?_
  refine Eq.trans ?_ (Cert.ReferenceIdeal.Read.val_main_v4_apply (V c main_arg0) (V c main_arg3) (((cfg0.win 2).blk t).view.emb j)).symm
  refine Finset.sum_congr rfl fun k _ => ?_
  have hj0 : (j 0).val < 2000 := (j 0).isLt
  have hj1 : (j 1).val < 256 := (j 1).isLt
  have hl : iblk0 V c 0 t (rowK0 j k) = V c main_arg0 (Cert.ReferenceIdeal.Read.lidx_main_v4 (((cfg0.win 2).blk t).view.emb j) k) := by
    show V c main_arg0 (((cfg0.win 0).blk t).view.emb (rowK0 j k)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have hr : iblk0 V c 1 t (kCol0 j k) = V c main_arg3 (Cert.ReferenceIdeal.Read.ridx_main_v4 (((cfg0.win 2).blk t).view.emb j) k) := by
    show V c main_arg3 (((cfg0.win 1).blk t).view.emb (kCol0 j k)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega
  rw [hl, hr]

/-- The output array after the region: the product of the two matrices the region found. Row r is
    covered by the point r / 2000. -/
theorem final0 (c : Dev nD) :
    (dat0 (F := Ideal) V c).arrAt 2 cfg0.N = Cert.Gcn.product1 (F := Ideal) (V c main_arg0) (V c main_arg3) :=
  (dat0 V c).arrAt_eq_of_cover 2 _ (fun t _ => flushed0 V c t) fun i => by
    have hi0 : (i 0).val < 50000 := (i 0).isLt
    have hi1 : (i 1).val < 256 := (i 1).isLt
    have hN : cfg0.N = 25 := N_0
    obtain ⟨t, ht⟩ : ∃ t : Fin cfg0.N, t.val = (i 0).val / 2000 := ⟨⟨(i 0).val / 2000, by rw [hN]; omega⟩, rfl⟩
    obtain ⟨e0, e1, e2, e3, e4, e5⟩ := blockIndex0 t
    refine ⟨t, flush0_2 t, ?_⟩
    show i ∈ ((View.whole main_v4).slice (win0_2.rect t)).set
    rw [View.set_slice_whole, Rect.mem_set_unit]
    intro a
    match a with
    | ⟨0, _⟩ => show win0_2.index t (0 : Fin 2) * 2000 ≤ (i 0).val ∧ (i 0).val < win0_2.index t (0 : Fin 2) * 2000 + 2000; omega
    | ⟨1, _⟩ => show win0_2.index t (1 : Fin 2) * 256 ≤ (i 1).val ∧ (i 1).val < win0_2.index t (1 : Fin 2) * 256 + 256; omega

end Cert.Gcn.Kernel

end
-- ==== Proof.Product2.lean ====
/-
  The second dense product, as the kernel leaves it in its output array.

  The same tiling as for the first product, at the other sizes: the left matrix is the first layer's
  result (50000 × 256, 25 blocks of 2000 rows), the right one the second weight matrix (256 × 128).
  At grid point t the body stores into block t of the output the product, accumulated from zero, of
  block t of the left matrix with the whole right matrix; a reshape to the same shape and the change
  of number format in front of the product are both the identity. Entry (r, c) of the stored block
  is  Σ_k  left (2000 t + r, k) · right (k, c),  k over the 256 shared indices: entry (2000 t + r, c)
  of the product of the whole matrices. The blocks cover the rows, so the output array ends holding
  that product, whatever matrices the region finds.
-/
import proofs.«139594_j37160057045292_1_alg».proof.Proof.Layer
import proofs.«139594_j37160057045292_1_alg».proof.Proof.Product1
import proofs.«139594_j37160057045292_1_alg».proof.Proof.Gen.KernelIdeal.Frame
import proofs.«139594_j37160057045292_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.Gcn.Kernel

open Cert.KernelIdeal Cert.KernelIdeal.Gen Idealize.ShloMosaic Idealize.ShloMosaic.TcCoe Idealize.SL.Sem
open Idealize.ShloMosaic.Pipeline (Dat)

/-! ## The block product at an index -/

/-- In the 2000 × 256 by 256 × 128 product, output entry j and summation index q read the left
    block at (row of j, q) and the right matrix at (q, column of j). -/
theorem left1_row (j : S2000x128.Idx) (q : dot_S2000x256_S256x128_S2000x128_1_0_0_1_n_n.contr.Idx) :
    (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem left1_k (j : S2000x128.Idx) (q : dot_S2000x256_S256x128_S2000x128_1_0_0_1_n_n.contr.Idx) :
    (dot_S2000x256_S256x128_S2000x128_1_0_0_1_n_n.lhsIdx j q 1).val = (q ⟨0, by decide⟩).val :=
  dot_S2000x256_S256x128_S2000x128_1_0_0_1_n_n.lhsIdx_val_of_single rfl j q
theorem right1_k (j : S2000x128.Idx) (q : dot_S2000x256_S256x128_S2000x128_1_0_0_1_n_n.contr.Idx) :
    (dot_S2000x256_S256x128_S2000x128_1_0_0_1_n_n.rhsIdx j q 0).val = (q ⟨0, by decide⟩).val :=
  dot_S2000x256_S256x128_S2000x128_1_0_0_1_n_n.rhsIdx_val_of_single rfl j q
theorem right1_col (j : S2000x128.Idx) (q : dot_S2000x256_S256x128_S2000x128_1_0_0_1_n_n.contr.Idx) :
    (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- (row of j, k) in the left block and (k, column of j) in the right matrix. -/
abbrev rowK1 (j : S2000x128.Idx) (k : Fin 256) : S2000x256.Idx := fun a => match a with
  | ⟨0, _⟩ => ⟨(j 0).val, (j 0).isLt⟩
  | ⟨1, _⟩ => ⟨k.val, k.isLt⟩
abbrev kCol1 (j : S2000x128.Idx) (k : Fin 256) : S256x128.Idx := fun a => match a with
  | ⟨0, _⟩ => ⟨k.val, k.isLt⟩
  | ⟨1, _⟩ => ⟨(j 1).val, (j 1).isLt⟩

/-- What the body stores, at an entry: the sum over the 256 shared indices of left times right. -/
theorem stored1_apply (x0 : Vec Ideal S2000x256 .f32) (x1 : Vec Ideal S256x128 .f32) (j : S2000x128.Idx) :
    k1_pay1 (F := Ideal) x0 x1 j = ∑ k : Fin 256, x0 (rowK1 j k) * x1 (kCol1 j k) := by
  show FloatOps.matmul dot_S2000x256_S256x128_S2000x128_1_0_0_1_n_n none (shapeCast S2000x256 x0 shapeCasts_S2000x256_S2000x256) x1 (constant (F := Ideal) S2000x128 .f32 0x00000000#32) j = _
  rw [shapeCast_self]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = rowK1 j k := funext fun a => Fin.ext (by
    match a with
    | ⟨0, _⟩ => exact left1_row _ _
    | ⟨1, _⟩ => exact (left1_k _ _).trans hk)
  have er : dot_S2000x256_S256x128_S2000x128_1_0_0_1_n_n.rhsIdx j ((ValueIdx.contrEquiv1 dot_S2000x256_S256x128_S2000x128_1_0_0_1_n_n 256 rfl rfl).symm k) = kCol1 j k := funext fun a => Fin.ext (by
    match a with
    | ⟨0, _⟩ => exact (right1_k _ _).trans hk
    | ⟨1, _⟩ => exact right1_col _ _)
  rw [el, er]

/-- The product of the whole matrices at an entry: the same sum over the 256 shared indices, the left
    matrix read at (row of i, k) and the right one at (k, column of i). -/
theorem wholeProduct2_apply (x : (⟨Cert.ReferenceIdeal.S50000x256, .f32⟩ : BufTy).Contents (Elt Ideal))
    (w : (⟨Cert.ReferenceIdeal.S256x128, .f32⟩ : BufTy).Contents (Elt Ideal)) (i : Cert.ReferenceIdeal.S50000x128.Idx) :
    Cert.Gcn.product2 (F := Ideal) x w i
      = ∑ k : Fin 256, x (Cert.ReferenceIdeal.Read.lidx_main_v52 i k) * w (Cert.ReferenceIdeal.Read.ridx_main_v52 i k) := by
  unfold Cert.Gcn.product2
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx i ((ValueIdx.contrEquiv1 Cert.ReferenceIdeal.dot_S50000x256_S256x128_S50000x128_1_0_0_1_n_n 256 rfl rfl).symm k) = Cert.ReferenceIdeal.Read.lidx_main_v52 i k := funext fun a => Fin.ext (by
    match a with
    | ⟨0, _⟩ => exact Cert.ReferenceIdeal.Read.lhs_main_v52_0 _ _
    | ⟨1, _⟩ => exact (Cert.ReferenceIdeal.Read.lhs_main_v52_1 _ _).trans hk)
  have er : Cert.ReferenceIdeal.dot_S50000x256_S256x128_S50000x128_1_0_0_1_n_n.rhsIdx i ((ValueIdx.contrEquiv1 Cert.ReferenceIdeal.dot_S50000x256_S256x128_S50000x128_1_0_0_1_n_n 256 rfl rfl).symm k) = Cert.ReferenceIdeal.Read.ridx_main_v52 i k := funext fun a => Fin.ext (by
    match a with
    | ⟨0, _⟩ => exact (Cert.ReferenceIdeal.Read.rhs_main_v52_0 _ _).trans hk
    | ⟨1, _⟩ => exact Cert.ReferenceIdeal.Read.rhs_main_v52_1 _ _)
  rw [el, er]

/-! ## From the 25 blocks to the array -/

/-- The printed block index maps, decided over the 25 grid points: the left matrix and the output
    move down one block of rows per point and never sideways; the right matrix stays put. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the product of the whole matrices, whatever the region
    finds in its arrays. -/
theorem flushed1 (c : Dev nD) (t : Fin cfg1.N) :
    (dat1 (F := Ideal) V c).flushed 2 t
      = ((cfg1.win 2).blk t).view.read (Elt Ideal) (Cert.Gcn.product2 (F := Ideal) (V c main_v51) (V c main_arg5)) := by
  show (cfg1.win 2).cut (grid1.coords t) ((dat1 V c).after 2 t) = _
  rw [after1_2]
  unfold out1_2
  rw [View.canon_unit_zero origin2]
  simp only [View.ld_unit_zero (S := S2000x256) origin2, View.ld_unit_zero (S := S256x128) origin2]
  obtain ⟨e0, e1, e2, e3, e4, e5⟩ := blockIndex1 t
  funext j
  show k1_pay1 (iblk1 V c 0 t) (iblk1 V c 1 t) j
    = Cert.Gcn.product2 (F := Ideal) (V c main_v51) (V c main_arg5) (((cfg1.win 2).blk t).view.emb j)
  refine (stored1_apply (iblk1 V c 0 t) (iblk1 V c 1 t) j).trans ?_
  refine Eq.trans ?_ (wholeProduct2_apply (V c main_v51) (V c main_arg5) (((cfg1.win 2).blk t).view.emb j)).symm
  refine Finset.sum_congr rfl fun k _ => ?_
  have hj0 : (j 0).val < 2000 := (j 0).isLt
  have hj1 : (j 1).val < 128 := (j 1).isLt
  have hl : iblk1 V c 0 t (rowK1 j k) = V c main_v51 (Cert.ReferenceIdeal.Read.lidx_main_v52 (((cfg1.win 2).blk t).view.emb j) k) := by
    show V c main_v51 (((cfg1.win 0).blk t).view.emb (rowK1 j k)) = _
    refine congrArg (V c main_v51) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * k.val = k.val; omega
  have hr : iblk1 V c 1 t (kCol1 j k) = V c main_arg5 (Cert.ReferenceIdeal.Read.ridx_main_v52 (((cfg1.win 2).blk t).view.emb j) k) := by
    show V c main_arg5 (((cfg1.win 1).blk t).view.emb (kCol1 j k)) = _
    refine congrArg (V c main_arg5) (funext fun a => Fin.ext ?_)
    match a with
    | ⟨0, _⟩ => show win1_1.index t (0 : Fin 2) * 256 + 1 * k.val = k.val; omega
    | ⟨1, _⟩ => show win1_1.index t (1 : Fin 2) * 128 + 1 * (j 1).val = win1_2.index t (1 : Fin 2) * 128 + 1 * (j 1).val; omega
  rw [hl, hr]

/-- The output array after the region: the product of the two matrices the region found. Row r is
    covered by the point r / 2000. -/
theorem final1 (c : Dev nD) :
    (dat1 (F := Ideal) V c).arrAt 2 cfg1.N = Cert.Gcn.product2 (F := Ideal) (V c main_v51) (V c main_arg5) :=
  (dat1 V c).arrAt_eq_of_cover 2 _ (fun t _ => flushed1 V c t) fun i => by
    have hi0 : (i 0).val < 50000 := (i 0).isLt
    have hi1 : (i 1).val < 128 := (i 1).isLt
    have hN : cfg1.N = 25 := N_1
    obtain ⟨t, ht⟩ : ∃ t : Fin cfg1.N, t.val = (i 0).val / 2000 := ⟨⟨(i 0).val / 2000, by rw [hN]; omega⟩, rfl⟩
    obtain ⟨e0, e1, e2, e3, e4, e5⟩ := blockIndex1 t
    refine ⟨t, flush1_2 t, ?_⟩
    show i ∈ ((View.whole main_v52).slice (win1_2.rect t)).set
    rw [View.set_slice_whole, Rect.mem_set_unit]
    intro a
    match a with
    | ⟨0, _⟩ => show win1_2.index t (0 : Fin 2) * 2000 ≤ (i 0).val ∧ (i 0).val < win1_2.index t (0 : Fin 2) * 2000 + 2000; omega
    | ⟨1, _⟩ => show win1_2.index t (1 : Fin 2) * 128 ≤ (i 1).val ∧ (i 1).val < win1_2.index t (1 : Fin 2) * 128 + 128; omega

end Cert.Gcn.Kernel

end
-- ==== Proof.KernelValue.lean ====
/-
  The kernel program's result as the network over its own two products.

  The result buffer is read back through the fold of boundary contents. The last four stretches of
  host operations are the second layer applied to the second region's output array, to the two rows
  of the edge list, the edge weights and the second bias; the second region's output array is the
  product of the first layer's result with the second weight matrix; the middle four stretches are
  the first layer applied to the first region's output array; that array is the product of the input
  features with the first weight matrix; and the two rows of the edge list are what the first
  stretch cut out of the edge-list argument. No host operation and no region writes an argument, and
  the regions write nothing but their output arrays, so everything else is carried back to launch.
-/
import proofs.«139594_j37160057045292_1_alg».proof.Proof.Layer
import proofs.«139594_j37160057045292_1_alg».proof.Proof.Product1
import proofs.«139594_j37160057045292_1_alg».proof.Proof.Product2
import Idealize.ShloMosaic.Lib.StableHlo.Run

set_option maxRecDepth 16384

noncomputable section

namespace Cert.Gcn.Kernel

open Cert.KernelIdeal Cert.KernelIdeal.Gen Idealize.ShloMosaic Idealize.ShloMosaic.TcCoe Idealize.SL.Sem
open Idealize.ShloMosaic.StableHlo

/-! ## One layer's host operations, stretch by stretch

A layer is four stretches of host operations: the first appends the self-loops to the two rows of the
edge list and to the weights, adds up the degrees, and takes their clamped inverse square roots and
the mask of the positive ones; the second selects between them; the third gathers, scales and
scatter-adds the rows of the product and adds the bias; the fourth cuts off the negative part. Each
buffer a stretch writes is one stage of the layer of the buffers the stretch finds, and a buffer it
does not write is as it found it. -/

section Stretches

variable (V : Valuation τ sig (Elt Ideal))

/-! ### Layer 1: its four stretches, each from an arbitrary entry valuation -/

theorem srcLoops1 : StableHlo.after hostOps1 V (Proc.devRef .tc main_v6) = Cert.Gcn.withLoops (F := Ideal) (V (Proc.devRef .tc main_v1)) := by
  dsimp only [hostOps1]; after_results_simp; rfl
theorem dstLoops1 : StableHlo.after hostOps1 V (Proc.devRef .tc main_v7) = Cert.Gcn.withLoops (F := Ideal) (V (Proc.devRef .tc main_v3)) := by
  dsimp only [hostOps1]; after_results_simp; rfl
theorem loopWeights1 : StableHlo.after hostOps1 V (Proc.devRef .tc main_v9) = Cert.Gcn.weights (F := Ideal) (V (Proc.devRef .tc main_arg2)) := by
  dsimp only [hostOps1]; after_results_simp; rfl
theorem degPositive1 : StableHlo.after hostOps1 V (Proc.devRef .tc main_v14)
    = Cert.Gcn.isPositive (F := Ideal) (Cert.Gcn.degreeOf (Cert.Gcn.withLoops (V (Proc.devRef .tc main_v3))) (Cert.Gcn.weights (V (Proc.devRef .tc main_arg2)))) := by
  dsimp only [hostOps1]; after_results_simp; rfl
theorem degRsqrt1 : StableHlo.after hostOps1 V (Proc.devRef .tc main_v17)
    = Cert.Gcn.rsqrtClamped (F := Ideal) (Cert.Gcn.degreeOf (Cert.Gcn.withLoops (V (Proc.devRef .tc main_v3))) (Cert.Gcn.weights (V (Proc.devRef .tc main_arg2)))) := by
  dsimp only [hostOps1]; after_results_simp; rfl
theorem zeroScalar1 : StableHlo.after hostOps1 V (Proc.devRef .tc main_cst_3) = constant (F := Ideal) Cert.ReferenceIdeal.S_ .f32 0x00000000#32 := by
  dsimp only [hostOps1]; after_results_simp
theorem keepA1_product : StableHlo.after hostOps1 V (Proc.devRef .tc main_v4) = V (Proc.devRef .tc main_v4) := by
  dsimp only [hostOps1]; after_results_simp
theorem keepA1_bias : StableHlo.after hostOps1 V (Proc.devRef .tc main_arg4) = V (Proc.devRef .tc main_arg4) := by
  dsimp only [hostOps1]; after_results_simp

theorem whereStretch1 : StableHlo.after hostOps1_1 V (Proc.devRef .tc main_v18)
    = select (V (Proc.devRef .tc main_v14)) (V (Proc.devRef .tc main_v17)) (Cert.Gcn.fillOf (F := Ideal) (V (Proc.devRef .tc main_cst_3))) := by
  dsimp only [hostOps1_1]; after_results_simp; rfl
theorem keepB1_srcLoops : StableHlo.after hostOps1_1 V (Proc.devRef .tc main_v6) = V (Proc.devRef .tc main_v6) := by
  dsimp only [hostOps1_1]; after_results_simp
theorem keepB1_dstLoops : StableHlo.after hostOps1_1 V (Proc.devRef .tc main_v7) = V (Proc.devRef .tc main_v7) := by
  dsimp only [hostOps1_1]; after_results_simp
theorem keepB1_weights : StableHlo.after hostOps1_1 V (Proc.devRef .tc main_v9) = V (Proc.devRef .tc main_v9) := by
  dsimp only [hostOps1_1]; after_results_simp
theorem keepB1_product : StableHlo.after hostOps1_1 V (Proc.devRef .tc main_v4) = V (Proc.devRef .tc main_v4) := by
  dsimp only [hostOps1_1]; after_results_simp
theorem keepB1_bias : StableHlo.after hostOps1_1 V (Proc.devRef .tc main_arg4) = V (Proc.devRef .tc main_arg4) := by
  dsimp only [hostOps1_1]; after_results_simp

theorem aggStretch1 : StableHlo.after hostOps1_2 V (Proc.devRef .tc main_v50)
    = Cert.Gcn.aggregate256 (F := Ideal) (V (Proc.devRef .tc main_v6)) (V (Proc.devRef .tc main_v7)) (V (Proc.devRef .tc main_v9)) (V (Proc.devRef .tc main_v18)) (V (Proc.devRef .tc main_arg4)) (V (Proc.devRef .tc main_v4)) := by
  dsimp only [hostOps1_2]; after_results_simp; rfl

theorem reluStretch1 : StableHlo.after hostOps1_3 V (Proc.devRef .tc main_v51) = Cert.Gcn.relu256 (F := Ideal) (V (Proc.devRef .tc main_v50)) := by
  dsimp only [hostOps1_3]; after_results_simp; rfl

/-- The four stretches in a row: layer 1 of the entry valuation's edge rows, weights, bias and product. -/
theorem layerStretches1 :
    StableHlo.after hostOps1_3 (StableHlo.after hostOps1_2 (StableHlo.after hostOps1_1 (StableHlo.after hostOps1 V))) (Proc.devRef .tc main_v51)
      = Cert.Gcn.layer256 (F := Ideal) (V (Proc.devRef .tc main_v1)) (V (Proc.devRef .tc main_v3)) (V (Proc.devRef .tc main_arg2)) (V (Proc.devRef .tc main_arg4)) (V (Proc.devRef .tc main_v4)) := by
  rw [reluStretch1, aggStretch1, whereStretch1,
    keepB1_srcLoops, keepB1_dstLoops, keepB1_weights, keepB1_product, keepB1_bias,
    srcLoops1, dstLoops1, loopWeights1, degPositive1, degRsqrt1, zeroScalar1, keepA1_product, keepA1_bias]
  rfl

/-! ### Layer 2: its four stretches, each from an arbitrary entry valuation -/

theorem srcLoops2 : StableHlo.after hostOps2 V (Proc.devRef .tc main_v54) = Cert.Gcn.withLoops (F := Ideal) (V (Proc.devRef .tc main_v1)) := by
  dsimp only [hostOps2]; after_results_simp; rfl
theorem dstLoops2 : StableHlo.after hostOps2 V (Proc.devRef .tc main_v55) = Cert.Gcn.withLoops (F := Ideal) (V (Proc.devRef .tc main_v3)) := by
  dsimp only [hostOps2]; after_results_simp; rfl
theorem loopWeights2 : StableHlo.after hostOps2 V (Proc.devRef .tc main_v57) = Cert.Gcn.weights (F := Ideal) (V (Proc.devRef .tc main_arg2)) := by
  dsimp only [hostOps2]; after_results_simp; rfl
theorem degPositive2 : StableHlo.after hostOps2 V (Proc.devRef .tc main_v62)
    = Cert.Gcn.isPositive (F := Ideal) (Cert.Gcn.degreeOf (Cert.Gcn.withLoops (V (Proc.devRef .tc main_v3))) (Cert.Gcn.weights (V (Proc.devRef .tc main_arg2)))) := by
  dsimp only [hostOps2]; after_results_simp; rfl
theorem degRsqrt2 : StableHlo.after hostOps2 V (Proc.devRef .tc main_v65)
    = Cert.Gcn.rsqrtClamped (F := Ideal) (Cert.Gcn.degreeOf (Cert.Gcn.withLoops (V (Proc.devRef .tc main_v3))) (Cert.Gcn.weights (V (Proc.devRef .tc main_arg2)))) := by
  dsimp only [hostOps2]; after_results_simp; rfl
theorem zeroScalar2 : StableHlo.after hostOps2 V (Proc.devRef .tc main_cst_14) = constant (F := Ideal) Cert.ReferenceIdeal.S_ .f32 0x00000000#32 := by
  dsimp only [hostOps2]; after_results_simp
theorem keepA2_product : StableHlo.after hostOps2 V (Proc.devRef .tc main_v52) = V (Proc.devRef .tc main_v52) := by
  dsimp only [hostOps2]; after_results_simp
theorem keepA2_bias : StableHlo.after hostOps2 V (Proc.devRef .tc main_arg6) = V (Proc.devRef .tc main_arg6) := by
  dsimp only [hostOps2]; after_results_simp

theorem whereStretch2 : StableHlo.after hostOps2_1 V (Proc.devRef .tc main_v66)
    = select (V (Proc.devRef .tc main_v62)) (V (Proc.devRef .tc main_v65)) (Cert.Gcn.fillOf (F := Ideal) (V (Proc.devRef .tc main_cst_14))) := by
  dsimp only [hostOps2_1]; after_results_simp; rfl
theorem keepB2_srcLoops : StableHlo.after hostOps2_1 V (Proc.devRef .tc main_v54) = V (Proc.devRef .tc main_v54) := by
  dsimp only [hostOps2_1]; after_results_simp
theorem keepB2_dstLoops : StableHlo.after hostOps2_1 V (Proc.devRef .tc main_v55) = V (Proc.devRef .tc main_v55) := by
  dsimp only [hostOps2_1]; after_results_simp
theorem keepB2_weights : StableHlo.after hostOps2_1 V (Proc.devRef .tc main_v57) = V (Proc.devRef .tc main_v57) := by
  dsimp only [hostOps2_1]; after_results_simp
theorem keepB2_product : StableHlo.after hostOps2_1 V (Proc.devRef .tc main_v52) = V (Proc.devRef .tc main_v52) := by
  dsimp only [hostOps2_1]; after_results_simp
theorem keepB2_bias : StableHlo.after hostOps2_1 V (Proc.devRef .tc main_arg6) = V (Proc.devRef .tc main_arg6) := by
  dsimp only [hostOps2_1]; after_results_simp

theorem aggStretch2 : StableHlo.after hostOps2_2 V (Proc.devRef .tc main_v98)
    = Cert.Gcn.aggregate128 (F := Ideal) (V (Proc.devRef .tc main_v54)) (V (Proc.devRef .tc main_v55)) (V (Proc.devRef .tc main_v57)) (V (Proc.devRef .tc main_v66)) (V (Proc.devRef .tc main_arg6)) (V (Proc.devRef .tc main_v52)) := by
  dsimp only [hostOps2_2]; after_results_simp; rfl

theorem reluStretch2 : StableHlo.after hostOps2_3 V (Proc.devRef .tc main_v99) = Cert.Gcn.relu128 (F := Ideal) (V (Proc.devRef .tc main_v98)) := by
  dsimp only [hostOps2_3]; after_results_simp; rfl

/-- The four stretches in a row: layer 2 of the entry valuation's edge rows, weights, bias and product. -/
theorem layerStretches2 :
    StableHlo.after hostOps2_3 (StableHlo.after hostOps2_2 (StableHlo.after hostOps2_1 (StableHlo.after hostOps2 V))) (Proc.devRef .tc main_v99)
      = Cert.Gcn.layer128 (F := Ideal) (V (Proc.devRef .tc main_v1)) (V (Proc.devRef .tc main_v3)) (V (Proc.devRef .tc main_arg2)) (V (Proc.devRef .tc main_arg6)) (V (Proc.devRef .tc main_v52)) := by
  rw [reluStretch2, aggStretch2, whereStretch2,
    keepB2_srcLoops, keepB2_dstLoops, keepB2_weights, keepB2_product, keepB2_bias,
    srcLoops2, dstLoops2, loopWeights2, degPositive2, degRsqrt2, zeroScalar2, keepA2_product, keepA2_bias]
  rfl

end Stretches

variable (m : (ℓ : Loc nD τ sig) → Buf (Elt Ideal) ℓ) (ρ : Dev nD → PrngReg) (c : Dev nD)

/-! ## Before the first region: the two rows of the edge list; the arguments as launched -/

theorem W1_src : W1 m ρ c (Proc.devRef .tc main_v1) = Cert.Gcn.sources (F := Ideal) (m ((c : Thread nD τ).loc main_arg1)) := by
  show StableHlo.after hostOps0 (W0 m ρ c) (Proc.devRef .tc main_v1) = _
  dsimp only [hostOps0]; after_results_simp; rfl
theorem W1_dst : W1 m ρ c (Proc.devRef .tc main_v3) = Cert.Gcn.destinations (F := Ideal) (m ((c : Thread nD τ).loc main_arg1)) := by
  show StableHlo.after hostOps0 (W0 m ρ c) (Proc.devRef .tc main_v3) = _
  dsimp only [hostOps0]; after_results_simp; rfl
theorem W1_arg0 : W1 m ρ c (Proc.devRef .tc main_arg0) = m ((c : Thread nD τ).loc main_arg0) := by
  show StableHlo.after hostOps0 (W0 m ρ c) (Proc.devRef .tc main_arg0) = _
  dsimp only [hostOps0]; after_results_simp
theorem W1_arg2 : W1 m ρ c (Proc.devRef .tc main_arg2) = m ((c : Thread nD τ).loc main_arg2) := by
  show StableHlo.after hostOps0 (W0 m ρ c) (Proc.devRef .tc main_arg2) = _
  dsimp only [hostOps0]; after_results_simp
theorem W1_arg3 : W1 m ρ c (Proc.devRef .tc main_arg3) = m ((c : Thread nD τ).loc main_arg3) := by
  show StableHlo.after hostOps0 (W0 m ρ c) (Proc.devRef .tc main_arg3) = _
  dsimp only [hostOps0]; after_results_simp
theorem W1_arg4 : W1 m ρ c (Proc.devRef .tc main_arg4) = m ((c : Thread nD τ).loc main_arg4) := by
  show StableHlo.after hostOps0 (W0 m ρ c) (Proc.devRef .tc main_arg4) = _
  dsimp only [hostOps0]; after_results_simp
theorem W1_arg5 : W1 m ρ c (Proc.devRef .tc main_arg5) = m ((c : Thread nD τ).loc main_arg5) := by
  show StableHlo.after hostOps0 (W0 m ρ c) (Proc.devRef .tc main_arg5) = _
  dsimp only [hostOps0]; after_results_simp
theorem W1_arg6 : W1 m ρ c (Proc.devRef .tc main_arg6) = m ((c : Thread nD τ).loc main_arg6) := by
  show StableHlo.after hostOps0 (W0 m ρ c) (Proc.devRef .tc main_arg6) = _
  dsimp only [hostOps0]; after_results_simp

/-! ## After the first region: its output array is the first product -/

theorem W2_product : W2 m ρ c (Proc.devRef .tc main_v4)
    = Cert.Gcn.product1 (F := Ideal) (m ((c : Thread nD τ).loc main_arg0)) (m ((c : Thread nD τ).loc main_arg3)) :=
  (W2_arr m ρ c 2).trans ((final0 (V1 m ρ) c).trans (by
    show Cert.Gcn.product1 (W1 m ρ c (Proc.devRef .tc main_arg0)) (W1 m ρ c (Proc.devRef .tc main_arg3)) = _
    rw [W1_arg0, W1_arg3]))

/-! ## Up to the second region: the first layer -/

theorem W6_layer : W6 m ρ c (Proc.devRef .tc main_v51)
    = Cert.Gcn.layer256 (F := Ideal) (W2 m ρ c (Proc.devRef .tc main_v1)) (W2 m ρ c (Proc.devRef .tc main_v3))
        (W2 m ρ c (Proc.devRef .tc main_arg2)) (W2 m ρ c (Proc.devRef .tc main_arg4)) (W2 m ρ c (Proc.devRef .tc main_v4)) := by
  exact layerStretches1 (W2 m ρ c)

theorem W6_src : W6 m ρ c (Proc.devRef .tc main_v1) = W2 m ρ c (Proc.devRef .tc main_v1) := by
  show StableHlo.after hostOps1_3 (StableHlo.after hostOps1_2 (StableHlo.after hostOps1_1 (StableHlo.after hostOps1 (W2 m ρ c)))) (Proc.devRef .tc main_v1) = _
  dsimp only [hostOps1, hostOps1_1, hostOps1_2, hostOps1_3]; after_results_simp
theorem W6_dst : W6 m ρ c (Proc.devRef .tc main_v3) = W2 m ρ c (Proc.devRef .tc main_v3) := by
  show StableHlo.after hostOps1_3 (StableHlo.after hostOps1_2 (StableHlo.after hostOps1_1 (StableHlo.after hostOps1 (W2 m ρ c)))) (Proc.devRef .tc main_v3) = _
  dsimp only [hostOps1, hostOps1_1, hostOps1_2, hostOps1_3]; after_results_simp
theorem W6_arg2 : W6 m ρ c (Proc.devRef .tc main_arg2) = W2 m ρ c (Proc.devRef .tc main_arg2) := by
  show StableHlo.after hostOps1_3 (StableHlo.after hostOps1_2 (StableHlo.after hostOps1_1 (StableHlo.after hostOps1 (W2 m ρ c)))) (Proc.devRef .tc main_arg2) = _
  dsimp only [hostOps1, hostOps1_1, hostOps1_2, hostOps1_3]; after_results_simp
theorem W6_arg5 : W6 m ρ c (Proc.devRef .tc main_arg5) = W2 m ρ c (Proc.devRef .tc main_arg5) := by
  show StableHlo.after hostOps1_3 (StableHlo.after hostOps1_2 (StableHlo.after hostOps1_1 (StableHlo.after hostOps1 (W2 m ρ c)))) (Proc.devRef .tc main_arg5) = _
  dsimp only [hostOps1, hostOps1_1, hostOps1_2, hostOps1_3]; after_results_simp
theorem W6_arg6 : W6 m ρ c (Proc.devRef .tc main_arg6) = W2 m ρ c (Proc.devRef .tc main_arg6) := by
  show StableHlo.after hostOps1_3 (StableHlo.after hostOps1_2 (StableHlo.after hostOps1_1 (StableHlo.after hostOps1 (W2 m ρ c)))) (Proc.devRef .tc main_arg6) = _
  dsimp only [hostOps1, hostOps1_1, hostOps1_2, hostOps1_3]; after_results_simp

/-- The first layer's result, from the arguments. -/
theorem W6_hidden : W6 m ρ c (Proc.devRef .tc main_v51)
    = Cert.Gcn.layer256 (F := Ideal) (Cert.Gcn.sources (m ((c : Thread nD τ).loc main_arg1))) (Cert.Gcn.destinations (m ((c : Thread nD τ).loc main_arg1)))
        (m ((c : Thread nD τ).loc main_arg2)) (m ((c : Thread nD τ).loc main_arg4))
        (Cert.Gcn.product1 (m ((c : Thread nD τ).loc main_arg0)) (m ((c : Thread nD τ).loc main_arg3))) := by
  rw [W6_layer, W2_product, W2_of_ne m ρ c main_v1 (by decide), W2_of_ne m ρ c main_v3 (by decide),
    W2_of_ne m ρ c main_arg2 (by decide), W2_of_ne m ρ c main_arg4 (by decide), W1_src, W1_dst, W1_arg2, W1_arg4]

/-! ## After the second region: its output array is the second product -/

theorem W7_product : W7 m ρ c (Proc.devRef .tc main_v52)
    = Cert.Gcn.product2 (F := Ideal) (W6 m ρ c (Proc.devRef .tc main_v51)) (m ((c : Thread nD τ).loc main_arg5)) :=
  (W7_arr m ρ c 2).trans ((final1 (V6 m ρ) c).trans (by
    show Cert.Gcn.product2 (W6 m ρ c (Proc.devRef .tc main_v51)) (W6 m ρ c (Proc.devRef .tc main_arg5)) = _
    rw [W6_arg5, W2_of_ne m ρ c main_arg5 (by decide), W1_arg5]))

/-! ## To the end: the second layer -/

theorem W11_layer : W11 m ρ c (Proc.devRef .tc main_v99)
    = Cert.Gcn.layer128 (F := Ideal) (W7 m ρ c (Proc.devRef .tc main_v1)) (W7 m ρ c (Proc.devRef .tc main_v3))
        (W7 m ρ c (Proc.devRef .tc main_arg2)) (W7 m ρ c (Proc.devRef .tc main_arg6)) (W7 m ρ c (Proc.devRef .tc main_v52)) := by
  exact layerStretches2 (W7 m ρ c)

/-- THE KERNEL PROGRAM'S RESULT: the network over the two products, of the seven arguments. -/
theorem result_eq : W11 m ρ c (Proc.devRef .tc main_v99)
    = Cert.Gcn.network (F := Ideal) Cert.Gcn.product1 Cert.Gcn.product2
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [W11_layer, W7_product, W6_hidden,
    W7_of_ne m ρ c main_v1 (by decide), W7_of_ne m ρ c main_v3 (by decide), W7_of_ne m ρ c main_arg2 (by decide), W7_of_ne m ρ c main_arg6 (by decide),
    W6_src, W6_dst, W6_arg2, W6_arg6,
    W2_of_ne m ρ c main_v1 (by decide), W2_of_ne m ρ c main_v3 (by decide), W2_of_ne m ρ c main_arg2 (by decide), W2_of_ne m ρ c main_arg6 (by decide),
    W1_src, W1_dst, W1_arg2, W1_arg6]
  rfl

end Cert.Gcn.Kernel

end
-- ==== Proof.Bridge.lean ====
/-
  The two programs compute one function.

  The reference applies, in one straight line of host operations, the network over its two products:
  its result term, opened, IS layer 2 of (product 2 of (layer 1 of (product 1 of the features and the
  first weights)) and the second weights), each layer over the edge list, the edge weights and its
  bias. The kernel program's result is the same network over the products its two regions leave,
  and each of those is the product of the whole matrices. So from memories that agree on the seven
  arguments both programs end with the same array. No property of the numbers is used beyond reading
  both products as the same sum over the shared axis: the precondition is not opened.
-/
import proofs.«139594_j37160057045292_1_alg».proof.Defs
import proofs.«139594_j37160057045292_1_alg».proof.Proof.Layer
import proofs.«139594_j37160057045292_1_alg».proof.Proof.KernelRun
import proofs.«139594_j37160057045292_1_alg».proof.Proof.KernelValue
import proofs.«139594_j37160057045292_1_alg».proof.Proof.Gen.Kernel.Frame
import proofs.«139594_j37160057045292_1_alg».proof.Proof.Gen.ReferenceIdeal.Run
import proofs.«139594_j37160057045292_1_alg».proof.Proof.Gen.Pre_finite_inputs

set_option maxRecDepth 16384

noncomputable section

namespace Cert.Gcn

open Idealize.ShloMosaic Idealize.ShloMosaic.TcCoe Idealize.SL.Sem

/-- The reference's result term is the network over the reference's own two products. -/
theorem reference_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v99 (F := Ideal) m c
      = network (F := Ideal) product1 product2
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) := by
  unfold Cert.ReferenceIdeal.Value.res_main_v99
  rfl

/-- The three programs run and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, the idealized kernel program and the idealized
    reference both run and end with the network over the products of the kernel's arguments. -/
theorem algebraic : Cert.algebraic_KernelIdeal_ReferenceIdeal := by
  intro m ρ m' ρ' _ hagree
  refine ⟨fun c => network (F := Ideal) product1 product2
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Gcn.Kernel.result_eq m ρ c), (h c).2⟩) (Cert.Gcn.Kernel.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    rw [reference_result, a0, a1, a2, a3, a4, a5, a6]

end Cert.Gcn

end
-- ==== Proof.lean ====
/- The claim, assembled: a two-layer graph convolution whose dense products run as tiled matrix
   kernels, against the same network with plain matrix products.
   The three frames: the two kernel programs by their frame certificates, the reference by its run
   with the result dropped. The idealization rewrote nothing, so there is nothing to preserve.
   The value claim: both programs end with the network of Proof/Layer.lean over the products of the
   whole matrices (Proof/Bridge.lean). -/
import proofs.«139594_j37160057045292_1_alg».proof.Defs
import proofs.«139594_j37160057045292_1_alg».proof.Proof.Gen.Kernel
import proofs.«139594_j37160057045292_1_alg».proof.Proof.Gen.Kernel.Skeleton
import proofs.«139594_j37160057045292_1_alg».proof.Proof.Gen.Kernel.Launch
import proofs.«139594_j37160057045292_1_alg».proof.Proof.Gen.Kernel.Points
import proofs.«139594_j37160057045292_1_alg».proof.Proof.Gen.Kernel.Frame
import proofs.«139594_j37160057045292_1_alg».proof.Proof.Gen.KernelIdeal
import proofs.«139594_j37160057045292_1_alg».proof.Proof.Gen.KernelIdeal.Skeleton
import proofs.«139594_j37160057045292_1_alg».proof.Proof.Gen.KernelIdeal.Launch
import proofs.«139594_j37160057045292_1_alg».proof.Proof.Gen.KernelIdeal.Points
import proofs.«139594_j37160057045292_1_alg».proof.Proof.Gen.KernelIdeal.Frame
import proofs.«139594_j37160057045292_1_alg».proof.Proof.Gen.ReferenceIdeal
import proofs.«139594_j37160057045292_1_alg».proof.Proof.Gen.ReferenceIdeal.Run
import proofs.«139594_j37160057045292_1_alg».proof.Proof.Gen.ReferenceIdeal.Read
import proofs.«139594_j37160057045292_1_alg».proof.Proof.Gen.Pre_finite_inputs
import proofs.«139594_j37160057045292_1_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Gcn.frame_kernel, Cert.Gcn.frame_kernelIdeal, Cert.Gcn.frame_reference, trivial, Cert.Gcn.algebraic⟩

end Cert.Proof

end
